-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 10
  | .vmem => 9
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S_, .f32⟩
  | .hbm, ⟨16, _⟩ => ⟨S10000x1, .f32⟩
  | .hbm, ⟨17, _⟩ => ⟨S10000x1, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x1, .f32⟩
  | .hbm, ⟨31, _⟩ => ⟨S10000x1, .f32⟩
  | .hbm, ⟨32, _⟩ => ⟨S10000x1, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The mathematics both programs compute, on the extended reals.

  A row `a` of the adjacency matrix goes through two matrix products and a bias to a row `y` of 128 numbers (`lin`).
  The row is centred by its mean, scaled by the reciprocal root of its mean squared deviation plus a positive constant, and
  sent through an affine map and a clamp at zero (`rowOut`). One program multiplies by the reciprocal square root, the other
  divides by the square root. The two agree whenever the number under the root is positive (`mul_rsqrt_eq_div_sqrt`: a
  positive real has a nonzero real root, whose reciprocal is the same number either way; at `+∞` the reciprocal root is `0` and
  the quotient by `+∞` is `0`). And it IS positive on all extended reals: a product `x * x` is never negative there (`⊥ * ⊥ = ⊤`),
  so neither is a sum of such products nor its quotient by 128, and the added constant is positive (`spread_pos`). No
  finiteness of the data is used.
-/
import Idealize.ShloMosaic.PureOps.Ideal
import Idealize.ShloMosaic.PureOps.Ideal.Laws
import Idealize.ShloMosaic.Lib.ValueIdx

noncomputable section

namespace Cert.RowNorm

open Idealize.ShloMosaic Idealize.ShloMosaic.ValueIdx
open scoped BigOperators

/-! ## The two float constants -/

/-- The row width as both programs spell it: the float `128.0`. -/
def width : EReal := Ideal.ofBits .f32 0x43000000#32

/-- The constant added under the root: the float nearest `1e-5`. -/
def eps : EReal := Ideal.ofBits .f32 0x3727C5AC#32

/-- `128.0` denotes the real 128. -/
theorem width_eq : width = ((128 : ℝ) : EReal) := by
  unfold width
  simp [Ideal.ofBits, Ideal.ieee, -EReal.coe_mul]; norm_num

/-- The constant under the root denotes a positive real. -/
theorem eps_pos : 0 < eps := by
  unfold eps
  simp [Ideal.ofBits, Ideal.ieee, -EReal.coe_mul]

/-! ## Signs on the extended reals -/

/-- A product of an extended real with itself is never negative. -/
theorem mul_self_nonneg (x : EReal) : 0 ≤ x * x :=
  EReal.mul_nonneg_iff.2 ((le_total 0 x).imp (fun h => ⟨h, h⟩) (fun h => ⟨h, h⟩))

/-- The quotient of a nonnegative extended real by the width is nonnegative. -/
theorem div_width_nonneg {s : EReal} (h : 0 ≤ s) : 0 ≤ Ideal.div s width := by
  rw [width_eq, Ideal.div_coe (by norm_num)]
  exact EReal.mul_nonneg h (EReal.coe_nonneg.2 (by norm_num))

/-- Multiplying by the reciprocal root is dividing by the root, for a positive number under the root. -/
theorem mul_rsqrt_eq_div_sqrt (x : EReal) {v : EReal} (hv : 0 < v) : x * Ideal.rsqrt v = Ideal.div x (Ideal.sqrt v) := by
  induction v using EReal.rec with
  | bot => exact absurd hv not_lt_bot
  | coe r =>
    have hr : 0 < r := EReal.coe_pos.1 hv
    have hs : Real.sqrt r ≠ 0 := (Real.sqrt_pos.2 hr).ne'
    rw [Ideal.rsqrt_coe, Ideal.sqrt_coe, if_neg (not_lt.2 hr.le), if_neg hr.ne', if_neg (not_lt.2 hr.le), Ideal.div_coe hs, one_div]
  | top => rw [Ideal.rsqrt_top, Ideal.sqrt_top, mul_zero, Ideal.div, if_neg EReal.top_ne_zero, EReal.inv_top, mul_zero]

/-! ## One row, normalised -/

section Row
variable {ι : Type} [Fintype ι]

/-- The mean of a row: its sum over the width. -/
def mean (y : ι → EReal) : EReal := Ideal.div (∑ c, y c) width

/-- An entry's deviation from the row's mean. -/
def dev (y : ι → EReal) (c : ι) : EReal := y c - mean y

/-- The number under the root: the mean squared deviation plus the constant. -/
def spread (y : ι → EReal) : EReal := Ideal.div (∑ c, dev y c * dev y c) width + eps

/-- It is positive, whatever the row holds. -/
theorem spread_pos (y : ι → EReal) : 0 < spread y :=
  lt_of_lt_of_le eps_pos (le_add_of_nonneg_left (div_width_nonneg (Finset.sum_nonneg fun c _ => mul_self_nonneg (dev y c))))

/-- The normalised row through scale `g`, shift `bt` and the clamp at zero, with the reciprocal root as a factor. -/
def rowOut (y g bt : ι → EReal) (c : ι) : EReal := max (dev y c * Ideal.rsqrt (spread y) * g c + bt c) 0

/-- The same with the root as a divisor. -/
def rowOutDiv (y g bt : ι → EReal) (c : ι) : EReal := max (Ideal.div (dev y c) (Ideal.sqrt (spread y)) * g c + bt c) 0

/-- The two forms are one function. -/
theorem rowOutDiv_eq_rowOut (y g bt : ι → EReal) (c : ι) : rowOutDiv y g bt c = rowOut y g bt c := by
  unfold rowOut rowOutDiv
  rw [mul_rsqrt_eq_div_sqrt _ (spread_pos y)]

end Row

/-! ## The linear layer on one row, and the whole result -/

/-- A row `a` of the adjacency matrix times the feature matrix `X`, times the transposed weights `W`, plus the bias. -/
def lin (a : Fin 10000 → EReal) (X : (⟨2, ![10000, 128]⟩ : Shape).Idx → EReal) (W : (⟨2, ![128, 128]⟩ : Shape).Idx → EReal)
    (b : Fin 128 → EReal) (c : Fin 128) : EReal :=
  (∑ j : Fin 128, (∑ k : Fin 10000, a k * X (ix2 k j)) * W (ix2 c j)) + b c

/-- The result array: entry `(r, c)` is the normalised linear image of row `r` of `A`, at column `c`. -/
def G (A : (⟨2, ![10000, 10000]⟩ : Shape).Idx → EReal) (X : (⟨2, ![10000, 128]⟩ : Shape).Idx → EReal)
    (W : (⟨2, ![128, 128]⟩ : Shape).Idx → EReal) (b g bt : (⟨1, ![128]⟩ : Shape).Idx → EReal) :
    (⟨2, ![10000, 128]⟩ : Shape).Idx → EReal :=
  fun i => rowOut (lin (fun k => A (ix2 (i 0) k)) X W (fun c => b (ix1 c))) (fun c => g (ix1 c)) (fun c => bt (ix1 c)) (i 1)

end Cert.RowNorm

end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.KernelLin.lean ====
/-
  The kernel body's linear layer on one block, read at an index.

  The body holds a block of 400 rows of the adjacency matrix and the whole feature, weight and bias arrays. Entry `(p, c)`
  of its linear layer is row `p` of the block through the two products and the bias: the first product contracts the
  block's columns against the features' rows, the second contracts the result's columns against the COLUMNS of the weights
  (the weights enter transposed), and the bias row is repeated down the block.
-/
import proofs.«160427_g33552284516567_cont_8to1_b_1807_15_alg».proof.Proof.Gen.KernelIdeal.Skeleton
import proofs.«160427_g33552284516567_cont_8to1_b_1807_15_alg».proof.Proof.Spec
import proofs.«160427_g33552284516567_cont_8to1_b_1807_15_alg».proof.Proof.LibContract
import Idealize.ShloMosaic.Lib.ValueIdx
import Idealize.ShloMosaic.Lib.ValueLayout
import Idealize.ShloMosaic.Lib.Pipeline.Value

noncomputable section

namespace Cert.KernelRow

open Cert.KernelIdeal Cert.KernelIdeal.Gen Idealize.ShloMosaic Idealize.ShloMosaic.ValueIdx Cert.RowNorm
open scoped BigOperators

/-! ## The two products -/

/-- The block times the features. -/
def feat (x0 : FVec Ideal S400x10000 .f32) (x1 : FVec Ideal S10000x128 .f32) : FVec Ideal S400x128 .f32 :=
  matmul dot_S400x10000_S10000x128_S400x128_1_0_0_1_n_n none x0 x1 (constant S400x128 .f32 0x00000000#32)

/-- The first product keeps the output's row on the block's row axis, -/
theorem feat_lhs_row (j : S400x128.Idx) (q : dot_S400x10000_S10000x128_S400x128_1_0_0_1_n_n.contr.Idx) : (dot_S400x10000_S10000x128_S400x128_1_0_0_1_n_n.lhsIdx j q 0).val = (j 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

/-- and the output's column on the features' column axis. -/
theorem feat_rhs_col (j : S400x128.Idx) (q : dot_S400x10000_S10000x128_S400x128_1_0_0_1_n_n.contr.Idx) : (dot_S400x10000_S10000x128_S400x128_1_0_0_1_n_n.rhsIdx j q 1).val = (j 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- Entry `(p, j)`: row `p` of the block against column `j` of the features. -/
theorem feat_apply (x0 : FVec Ideal S400x10000 .f32) (x1 : FVec Ideal S10000x128 .f32) (p : Fin 400) (j : Fin 128) :
    feat x0 x1 (ix2 p j) = ∑ k : Fin 10000, x0 (ix2 p k) * x1 (ix2 k j) :=
  Cert.LibContract.matmul_zero_apply dot_S400x10000_S10000x128_S400x128_1_0_0_1_n_n 10000 rfl rfl none x0 x1 (ix2 p j)
    (fun k => ix2 p k) (fun k => ix2 k j)
    (fun q i h => funext fun a => Fin.ext (by
      match a with
      | ⟨0, _⟩ => exact feat_lhs_row (ix2 p j) q
      | ⟨1, _⟩ => exact (dot_S400x10000_S10000x128_S400x128_1_0_0_1_n_n.lhsIdx_val_of_single rfl (ix2 p j) q).trans h))
    (fun q i h => funext fun a => Fin.ext (by
      match a with
      | ⟨0, _⟩ => exact (dot_S400x10000_S10000x128_S400x128_1_0_0_1_n_n.rhsIdx_val_of_single rfl (ix2 p j) q).trans h
      | ⟨1, _⟩ => exact feat_rhs_col (ix2 p j) q))

/-- A block of features times the transposed weights. -/
def proj (h : FVec Ideal S400x128 .f32) (x2 : FVec Ideal S128x128 .f32) : FVec Ideal S400x128 .f32 :=
  matmul dot_S400x128_S128x128_S400x128_1_1_0_0_n_n none h x2 (constant S400x128 .f32 0x00000000#32)

/-- The second product keeps the output's row on the features' row axis, -/
theorem proj_lhs_row (j : S400x128.Idx) (q : dot_S400x128_S128x128_S400x128_1_1_0_0_n_n.contr.Idx) : (dot_S400x128_S128x128_S400x128_1_1_0_0_n_n.lhsIdx j q 0).val = (j 0).val := by
  unfold DotDims.lhsIdx
  rw [dif_neg (show ¬(0 : Fin S400x128.rank) ∈ dot_S400x128_S128x128_S400x128_1_1_0_0_n_n.lhsBatch by decide),
    dif_pos (show (0 : Fin S400x128.rank) ∈ dot_S400x128_S128x128_S400x128_1_1_0_0_n_n.lhsNonContracting by decide)]
  rfl

/-- and the output's column on the weights' ROW axis: the weights enter transposed. -/
theorem proj_rhs_row (j : S400x128.Idx) (q : dot_S400x128_S128x128_S400x128_1_1_0_0_n_n.contr.Idx) : (dot_S400x128_S128x128_S400x128_1_1_0_0_n_n.rhsIdx j q 0).val = (j 1).val := by
  unfold DotDims.rhsIdx
  rw [dif_neg (show ¬(0 : Fin S128x128.rank) ∈ dot_S400x128_S128x128_S400x128_1_1_0_0_n_n.rhsBatch by decide),
    dif_pos (show (0 : Fin S128x128.rank) ∈ dot_S400x128_S128x128_S400x128_1_1_0_0_n_n.rhsNonContracting by decide)]
  rfl

/-- Entry `(p, c)`: row `p` of the features against ROW `c` of the weights. -/
theorem proj_apply (h : FVec Ideal S400x128 .f32) (x2 : FVec Ideal S128x128 .f32) (p : Fin 400) (c : Fin 128) :
    proj h x2 (ix2 p c) = ∑ j : Fin 128, h (ix2 p j) * x2 (ix2 c j) :=
  Cert.LibContract.matmul_zero_apply dot_S400x128_S128x128_S400x128_1_1_0_0_n_n 128 rfl rfl none h x2 (ix2 p c)
    (fun j => ix2 p j) (fun j => ix2 c j)
    (fun q i hq => funext fun a => Fin.ext (by
      match a with
      | ⟨0, _⟩ => exact proj_lhs_row (ix2 p c) q
      | ⟨1, _⟩ => exact (dot_S400x128_S128x128_S400x128_1_1_0_0_n_n.lhsIdx_val_of_single rfl (ix2 p c) q).trans hq))
    (fun q i hq => funext fun a => Fin.ext (by
      match a with
      | ⟨0, _⟩ => exact proj_rhs_row (ix2 p c) q
      | ⟨1, _⟩ => exact (dot_S400x128_S128x128_S400x128_1_1_0_0_n_n.rhsIdx_val_of_single rfl (ix2 p c) q).trans hq))

/-! ## A parameter row repeated down the block -/

/-- A `[1, 128]` row laid over the 400 rows of a block. -/
def rowOver (x : FVec Ideal S1x128 .f32) : FVec Ideal S400x128 .f32 :=
  broadcastTo S400x128 (shapeCast S1x128 x shapeCasts_S1x128_S1x128) broadcasts_S1x128_S400x128

/-- Entry `(p, c)` is the row's entry `c`. -/
theorem rowOver_apply (x : FVec Ideal S1x128 .f32) (p : Fin 400) (c : Fin 128) : rowOver x (ix2 p c) = x (ix2 (0 : Fin 1) c) := by
  unfold rowOver
  rw [shapeCast_self]
  exact broadcastTo_1b_ab_apply x broadcasts_S1x128_S400x128 p c

/-! ## The linear layer -/

/-- The block through both products, plus the bias row. -/
def linBlock (x0 : FVec Ideal S400x10000 .f32) (x1 : FVec Ideal S10000x128 .f32) (x2 : FVec Ideal S128x128 .f32)
    (x3 : FVec Ideal S1x128 .f32) : FVec Ideal S400x128 .f32 :=
  addf (proj (feat x0 x1) x2) (rowOver x3)

/-- Entry `(p, c)` is the linear image of the block's row `p`, at `c`. -/
theorem linBlock_apply (x0 : FVec Ideal S400x10000 .f32) (x1 : FVec Ideal S10000x128 .f32) (x2 : FVec Ideal S128x128 .f32)
    (x3 : FVec Ideal S1x128 .f32) (p : Fin 400) (c : Fin 128) :
    linBlock x0 x1 x2 x3 (ix2 p c) = lin (fun k => x0 (ix2 p k)) x1 x2 (fun c' => x3 (ix2 (0 : Fin 1) c')) c := by
  unfold linBlock lin
  rw [addf_apply, proj_apply, rowOver_apply]
  exact congrArg (· + x3 (ix2 (0 : Fin 1) c)) (Finset.sum_congr rfl fun j _ => by rw [feat_apply])

end Cert.KernelRow

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.KernelNorm.lean ====
/-
  The kernel body's normalisation of a block, read at an index, and the body's whole result.

  Given a block `y` of 400 rows, the body sums each row, keeps the sums as a column, divides by the width and spreads the
  column back over the row (the mean); subtracts it (the deviation); does the same to the squared deviations and adds the
  constant (the number under the root); takes the reciprocal root, spreads it over the row and multiplies; then the scale
  row, the shift row and the clamp at zero. Entry `(p, q)` is therefore the normalised ROW `p` of `y` at `q`: a function of
  that row alone.
-/
import proofs.«160427_g33552284516567_cont_8to1_b_1807_15_alg».proof.Proof.KernelLin
import proofs.«160427_g33552284516567_cont_8to1_b_1807_15_alg».proof.Proof.LibColumnLayout
import proofs.«160427_g33552284516567_cont_8to1_b_1807_15_alg».proof.Proof.LibRowReduce

noncomputable section

namespace Cert.KernelRow

open Cert.KernelIdeal Cert.KernelIdeal.Gen Idealize.ShloMosaic Idealize.ShloMosaic.ValueIdx Cert.RowNorm
open scoped BigOperators

/-! ## A row sum kept as a column, over the width -/

/-- The row sums of a block, as a column, divided by the width. -/
def colMean (z : FVec Ideal S400x128 .f32) : FVec Ideal S400x1 .f32 :=
  divf (shapeCast S400x1 (multiReduction .add [1] S400 z 0x00000000#32 reduces_S400x128_S400 (.inl rfl) rfl) shapeCasts_S400_S400x1)
    (broadcast S400x1 (Scalar.ofBits .f32 0x43000000#32))

/-- Its entry in row `p`: the sum of row `p` over the width. -/
theorem colMean_apply (z : FVec Ideal S400x128 .f32) (p : Fin 400) :
    colMean z (ix2 p (0 : Fin 1)) = Ideal.div (∑ c : Fin 128, z (ix2 p c)) width := by
  unfold colMean
  rw [divf_apply, broadcast_apply]
  refine congrArg (Ideal.div · width) ?_
  refine (Cert.LibColumnLayout.shapeCast_a_a1_apply _ shapeCasts_S400_S400x1 p (0 : Fin 1)).trans ?_
  exact Cert.LibRowReduce.multiReduction_add_row z 0x00000000#32 reduces_S400x128_S400 (.inl rfl) rfl p

/-- A column spread over the 128 entries of each row. -/
def colOver (v : FVec Ideal S400x1 .f32) : FVec Ideal S400x128 .f32 := broadcastTo S400x128 v broadcasts_S400x1_S400x128

/-- Entry `(p, c)` is the column's entry in row `p`. -/
theorem colOver_apply (v : FVec Ideal S400x1 .f32) (p : Fin 400) (c : Fin 128) : colOver v (ix2 p c) = v (ix2 p (0 : Fin 1)) :=
  Cert.LibColumnLayout.broadcastTo_a1_ab_apply v broadcasts_S400x1_S400x128 p c

/-! ## Deviations and the number under the root -/

/-- Each entry minus its row's mean. -/
def devBlock (y : FVec Ideal S400x128 .f32) : FVec Ideal S400x128 .f32 := subf y (colOver (colMean y))

theorem devBlock_apply (y : FVec Ideal S400x128 .f32) (p : Fin 400) (c : Fin 128) :
    devBlock y (ix2 p c) = dev (fun c' => y (ix2 p c')) c := by
  unfold devBlock dev mean
  rw [subf_apply, colOver_apply, colMean_apply]

/-- Per row, the mean squared deviation plus the constant, as a column. -/
def spreadCol (y : FVec Ideal S400x128 .f32) : FVec Ideal S400x1 .f32 :=
  addf (colMean (mulf (devBlock y) (devBlock y))) (broadcast S400x1 (Scalar.ofBits .f32 0x3727C5AC#32))

theorem spreadCol_apply (y : FVec Ideal S400x128 .f32) (p : Fin 400) :
    spreadCol y (ix2 p (0 : Fin 1)) = spread (fun c' => y (ix2 p c')) := by
  unfold spreadCol spread
  rw [addf_apply, broadcast_apply, colMean_apply]
  refine congrArg (fun s => Ideal.div s width + eps) (Finset.sum_congr rfl fun c _ => ?_)
  rw [mulf_apply, devBlock_apply]

/-! ## The normalised block -/

/-- Deviation times reciprocal root, times the scale row, plus the shift row, clamped at zero. -/
def normBlock (y : FVec Ideal S400x128 .f32) (x4 x5 : FVec Ideal S1x128 .f32) : FVec Ideal S400x128 .f32 :=
  maximumf (addf (mulf (mulf (devBlock y) (colOver (rsqrt (spreadCol y)))) (rowOver x4)) (rowOver x5))
    (broadcast S400x128 (Scalar.ofBits .f32 0x00000000#32))

/-- Entry `(p, q)` is row `p` of `y`, normalised, at `q`. -/
theorem normBlock_apply (y : FVec Ideal S400x128 .f32) (x4 x5 : FVec Ideal S1x128 .f32) (p : Fin 400) (q : Fin 128) :
    normBlock y x4 x5 (ix2 p q)
      = rowOut (fun c => y (ix2 p c)) (fun c => x4 (ix2 (0 : Fin 1) c)) (fun c => x5 (ix2 (0 : Fin 1) c)) q := by
  unfold normBlock rowOut
  rw [maximumf_apply, addf_apply, mulf_apply, mulf_apply, broadcast_apply, devBlock_apply, colOver_apply, rowOver_apply,
    rowOver_apply]
  have hr : rsqrt (spreadCol y) (ix2 p (0 : Fin 1)) = Ideal.rsqrt (spread fun c => y (ix2 p c)) :=
    congrArg Ideal.rsqrt (spreadCol_apply y p)
  rw [hr]
  exact congrArg (max _) Ideal.ofBits_zero_f32

/-! ## The body's result -/

/-- The body's one store holds the normalised linear layer of its blocks. -/
theorem pay_eq (x0 : FVec Ideal S400x10000 .f32) (x1 : FVec Ideal S10000x128 .f32) (x2 : FVec Ideal S128x128 .f32)
    (x3 x4 x5 : FVec Ideal S1x128 .f32) :
    k0_pay1 (F := Ideal) x0 x1 x2 x3 x4 x5 = normBlock (linBlock x0 x1 x2 x3) x4 x5 := rfl

/-- Entry `(p, q)` of the body's result: row `p` of the adjacency block through the linear layer, normalised, at `q`. -/
theorem pay_apply (x0 : FVec Ideal S400x10000 .f32) (x1 : FVec Ideal S10000x128 .f32) (x2 : FVec Ideal S128x128 .f32)
    (x3 x4 x5 : FVec Ideal S1x128 .f32) (p : Fin 400) (q : Fin 128) :
    k0_pay1 (F := Ideal) x0 x1 x2 x3 x4 x5 (ix2 p q)
      = rowOut (lin (fun k => x0 (ix2 p k)) x1 x2 (fun c => x3 (ix2 (0 : Fin 1) c))) (fun c => x4 (ix2 (0 : Fin 1) c))
          (fun c => x5 (ix2 (0 : Fin 1) c)) q := by
  rw [pay_eq, normBlock_apply]
  exact congrArg (fun y => rowOut y (fun c => x4 (ix2 (0 : Fin 1) c)) (fun c => x5 (ix2 (0 : Fin 1) c)) q)
    (funext fun c => linBlock_apply x0 x1 x2 x3 p c)

end Cert.KernelRow

end
-- ==== Proof.Blocks.lean ====
/-
  From the kernel's blocks to its result array.

  The grid has 25 points; point `t` holds rows `400 t … 400 t + 399` of the adjacency matrix, the whole feature and weight
  arrays and the three parameter rows (each a `[128]` argument re-laid as `[1, 128]` before the launch), and writes rows
  `400 t … 400 t + 399` of the result. Entry `(p, q)` of what it writes is the normalised linear image of row `p` of its
  adjacency block, which is row `400 t + p` of the matrix: so point `t` writes block `t` of the specification. The 25 blocks
  of 400 rows tile the 10000 rows, so the result array is the specification.
-/
import proofs.«160427_g33552284516567_cont_8to1_b_1807_15_alg».proof.Proof.Gen.KernelIdeal.Value
import proofs.«160427_g33552284516567_cont_8to1_b_1807_15_alg».proof.Proof.KernelNorm
import Idealize.ShloMosaic.Lib.StableHlo.Run

noncomputable section

namespace Cert.KernelRow

open Cert.KernelIdeal Cert.KernelIdeal.Gen Idealize.ShloMosaic Idealize.ShloMosaic.TcCoe Idealize.SL.Sem
open Idealize.ShloMosaic.ValueIdx Cert.RowNorm
open Idealize.ShloMosaic.Pipeline (Dat)

variable (m : (ℓ : Loc nD τ sig) → Buf (Elt Ideal) ℓ) (ρ : Dev nD → PrngReg)

/-! ## The parameter rows as the launch finds them -/

/-- The bias row the launch stages is the bias argument re-laid as `[1, 128]`. -/
theorem biasRow (c : Dev nD) :
    (V m c main_v0 : S1x128.Idx → EReal) = shapeCast S1x128 (m ((c : Thread nD τ).loc main_arg3)) shapeCasts_S128_S1x128 := by
  dsimp only [Gen.V, Gen.hostOps0]; after_results; rfl

/-- The scale row likewise. -/
theorem scaleRow (c : Dev nD) :
    (V m c main_v1 : S1x128.Idx → EReal) = shapeCast S1x128 (m ((c : Thread nD τ).loc main_arg4)) shapeCasts_S128_S1x128 := by
  dsimp only [Gen.V, Gen.hostOps0]; after_results; rfl

/-- The shift row likewise. -/
theorem shiftRow (c : Dev nD) :
    (V m c main_v2 : S1x128.Idx → EReal) = shapeCast S1x128 (m ((c : Thread nD τ).loc main_arg5)) shapeCasts_S128_S1x128 := by
  dsimp only [Gen.V, Gen.hostOps0]; after_results; rfl

/-! ## One entry of one point -/

/-- Entry `y` of a point's result is entry `i` of the specification, when the point's adjacency block holds row `i 0` of
    the matrix at its row `y 0`, the other blocks are the whole arrays and the parameter rows, and `y`, `i` name one
    column. -/
theorem entry_eq (x0 : FVec Ideal S400x10000 .f32) (x1 : FVec Ideal S10000x128 .f32) (x2 : FVec Ideal S128x128 .f32)
    (x3 x4 x5 : FVec Ideal S1x128 .f32) (A : S10000x10000.Idx → EReal) (X : S10000x128.Idx → EReal) (W : S128x128.Idx → EReal)
    (b g bt : S128.Idx → EReal) (y : S400x128.Idx) (i : S10000x128.Idx)
    (hA : ∀ k : Fin 10000, x0 (ix2 (y 0) k) = A (ix2 (i 0) k)) (hX : x1 = X) (hW : x2 = W)
    (hb : ∀ c : Fin 128, x3 (ix2 (0 : Fin 1) c) = b (ix1 c)) (hg : ∀ c : Fin 128, x4 (ix2 (0 : Fin 1) c) = g (ix1 c))
    (hbt : ∀ c : Fin 128, x5 (ix2 (0 : Fin 1) c) = bt (ix1 c)) (hcol : y 1 = i 1) :
    k0_pay1 (F := Ideal) x0 x1 x2 x3 x4 x5 y = G A X W b g bt i := by
  obtain ⟨p, q, rfl⟩ : ∃ (p : Fin 400) (q : Fin 128), y = ix2 p q := ⟨y 0, y 1, eq_ix2 y⟩
  subst hX hW
  rw [pay_apply]
  unfold G
  rw [show (fun k => x0 (ix2 p k)) = fun k => A (ix2 (i 0) k) from funext hA,
    show (fun c => x3 (ix2 (0 : Fin 1) c)) = fun c => b (ix1 c) from funext hb,
    show (fun c => x4 (ix2 (0 : Fin 1) c)) = fun c => g (ix1 c) from funext hg,
    show (fun c => x5 (ix2 (0 : Fin 1) c)) = fun c => bt (ix1 c) from funext hbt]
  exact congrArg _ hcol

/-! ## Where each window's block sits -/

theorem origin2 : (![0, 0] : Fin 2 → Nat) = fun _ => 0 := funext fun a => by fin_cases a <;> rfl

/-- The printed index maps over the 25 points: the adjacency window and the result window sit at block row `t`, block
    column `0`; every other window at block `(0, 0)`. -/
theorem block_origins : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- A `[1, 128]` parameter row, staged whole, read at `(0, c)` is the argument's entry `c`. -/
theorem paramRow_apply (x : S128.Idx → EReal) (e : S1x128.Idx) (c : Fin 128) (he : e = ix2 (0 : Fin 1) c) :
    shapeCast S1x128 x shapeCasts_S128_S1x128 e = x (ix1 c) := by
  subst he
  exact shapeCast_a_1a_apply x shapeCasts_S128_S1x128 (0 : Fin 1) c

/-! ## What a point writes back -/

/-- Point `t` writes block `t` of the specification of the argument arrays. -/
theorem flushed_eq (c : Dev nD) (t : Fin cfg0.N) :
    (dats m 0 c).flushed 6 t = ((cfg0.win 6).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6]
  unfold out0_6
  rw [View.canon_unit_zero origin2]
  simp only [View.ld_unit_zero (S := S400x10000) origin2, View.ld_unit_zero (S := S10000x128) origin2,
    View.ld_unit_zero (S := S128x128) origin2, View.ld_unit_zero (S := S1x128) origin2]
  obtain ⟨e60, e61, e00, e01, e10, e11, e20, e21, e30, e31, e40, e41, e50, e51⟩ := block_origins t
  funext j
  refine entry_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j (((cfg0.win 6).blk t).view.emb j) ?_ ?_ ?_ ?_ ?_ ?_ ?_
  · intro k
    show V m c main_arg0 (((cfg0.win 0).blk t).view.emb (ix2 (j 0) k)) = _
    rw [V_main_arg0]
    refine congrArg _ (funext fun a => Fin.ext ?_)
    match a with
    | ⟨0, _⟩ =>
      show win0_0.index t (0 : Fin 2) * 400 + 1 * (j 0).val = win0_6.index t (0 : Fin 2) * 400 + 1 * (j 0).val
      omega
    | ⟨1, _⟩ =>
      show win0_0.index t (1 : Fin 2) * 10000 + 1 * k.val = k.val
      omega
  · funext y
    show V m c main_arg1 (((cfg0.win 1).blk t).view.emb y) = _
    rw [V_main_arg1]
    refine congrArg _ (funext fun a => Fin.ext ?_)
    match a with
    | ⟨0, _⟩ => show win0_1.index t (0 : Fin 2) * 10000 + 1 * (y 0).val = (y 0).val; omega
    | ⟨1, _⟩ => show win0_1.index t (1 : Fin 2) * 128 + 1 * (y 1).val = (y 1).val; omega
  · funext y
    show V m c main_arg2 (((cfg0.win 2).blk t).view.emb y) = _
    rw [V_main_arg2]
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · intro c'
    show (V m c main_v0 : S1x128.Idx → EReal) (((cfg0.win 3).blk t).view.emb (ix2 (0 : Fin 1) c')) = _
    rw [biasRow]
    refine paramRow_apply _ _ c' (funext fun a => Fin.ext ?_)
    match a with
    | ⟨0, _⟩ => show win0_3.index t (0 : Fin 2) * 1 + 1 * 0 = 0; omega
    | ⟨1, _⟩ => show win0_3.index t (1 : Fin 2) * 128 + 1 * c'.val = c'.val; omega
  · intro c'
    show (V m c main_v1 : S1x128.Idx → EReal) (((cfg0.win 4).blk t).view.emb (ix2 (0 : Fin 1) c')) = _
    rw [scaleRow]
    refine paramRow_apply _ _ c' (funext fun a => Fin.ext ?_)
    match a with
    | ⟨0, _⟩ => show win0_4.index t (0 : Fin 2) * 1 + 1 * 0 = 0; omega
    | ⟨1, _⟩ => show win0_4.index t (1 : Fin 2) * 128 + 1 * c'.val = c'.val; omega
  · intro c'
    show (V m c main_v2 : S1x128.Idx → EReal) (((cfg0.win 5).blk t).view.emb (ix2 (0 : Fin 1) c')) = _
    rw [shiftRow]
    refine paramRow_apply _ _ c' (funext fun a => Fin.ext ?_)
    match a with
    | ⟨0, _⟩ => show win0_5.index t (0 : Fin 2) * 1 + 1 * 0 = 0; omega
    | ⟨1, _⟩ => show win0_5.index t (1 : Fin 2) * 128 + 1 * c'.val = c'.val; omega
  · apply Fin.ext
    show (j 1).val = win0_6.index t (1 : Fin 2) * 128 + 1 * (j 1).val
    omega

/-! ## The blocks tile the array -/

/-- An index is in point `t`'s result block iff each coordinate is in the block's range on its axis. -/
theorem mem_block (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v3).slice (win0_6.rect t)).set ↔ _
  rw [View.set_slice_whole, Rect.mem_set_unit]
  exact Iff.rfl

/-- Row `r` of the result lies in the block of point `r / 400`. -/
theorem covered (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : grid0.N = 25 := N_0
  have ht : (i 0).val / 400 < cfg0.N := by show (i 0).val / 400 < grid0.N; omega
  obtain ⟨e60, e61, -⟩ := block_origins ⟨(i 0).val / 400, ht⟩
  refine ⟨⟨(i 0).val / 400, ht⟩, flush0_6 _, ?_⟩
  rw [mem_block]
  intro a
  match a with
  | ⟨0, _⟩ =>
    show win0_6.index ⟨(i 0).val / 400, ht⟩ (0 : Fin 2) * 400 ≤ (i 0).val
      ∧ (i 0).val < win0_6.index ⟨(i 0).val / 400, ht⟩ (0 : Fin 2) * 400 + 400
    have e : win0_6.index ⟨(i 0).val / 400, ht⟩ (0 : Fin 2) = (i 0).val / 400 := e60
    omega
  | ⟨1, _⟩ =>
    show win0_6.index ⟨(i 0).val / 400, ht⟩ (1 : Fin 2) * 128 ≤ (i 1).val
      ∧ (i 1).val < win0_6.index ⟨(i 0).val / 400, ht⟩ (1 : Fin 2) * 128 + 128
    omega

/-! ## The result array and the run -/

/-- After the run the result array is the specification of the argument arrays. -/
theorem final (c : Dev nD) : (dats m 0 c).arrAt 6 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 6 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) covered

/-- Every weakly fair execution of the kernel program terminates with the result array at the specification and the
    arguments unchanged. -/
theorem run : θ_run defs (onTc (τ := τ) (main (F := Ideal))) ⟨m, fun _ => 0, ρ⟩ fun r => ∀ c : Dev nD,
      r.2.mem ((c : Thread nD τ).loc main_v3) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelRow

end
-- ==== Proof.RefRead.lean ====
/-
  The reference program's result, read at an index, is the specification.

  The reference works on the whole arrays at once: two products and the bias give the linear layer; each row's sum, kept as
  a column, over the width is the mean; the deviations, their squares' row sums over the width plus the constant, the
  square root, the quotient, the scale, the shift and the clamp follow. Read at `(r, c)` every stage depends on row `r` of
  the linear layer alone, so the result is that row normalised — in the form that divides by the root —, which is the
  specification's form by the law of the two forms.
-/
import proofs.«160427_g33552284516567_cont_8to1_b_1807_15_alg».proof.Proof.Gen.ReferenceIdeal.Read
import proofs.«160427_g33552284516567_cont_8to1_b_1807_15_alg».proof.Proof.Spec

noncomputable section

namespace Cert.RefRow

open Cert.ReferenceIdeal Cert.ReferenceIdeal.Gen Cert.ReferenceIdeal.Read Idealize.ShloMosaic Idealize.ShloMosaic.ValueIdx Cert.RowNorm
open scoped BigOperators

/-- A rank-2 index with the coordinates `a`, `b` is `ix2 a b`. -/
theorem ix2_ext {n0 n1 : ℕ} (i : (⟨2, ![n0, n1]⟩ : Shape).Idx) (a : Fin n0) (b : Fin n1) (h0 : (i 0).val = a.val)
    (h1 : (i 1).val = b.val) : i = ix2 a b :=
  funext fun d => Fin.ext (by match d with | ⟨0, _⟩ => exact h0 | ⟨1, _⟩ => exact h1)

/-- A rank-1 index with the coordinate `a` is `ix1 a`. -/
theorem ix1_ext {n : ℕ} (i : (⟨1, ![n]⟩ : Shape).Idx) (a : Fin n) (h0 : (i 0).val = a.val) : i = ix1 a :=
  funext fun d => Fin.ext (by match d with | ⟨0, _⟩ => exact h0)

variable (A : (⟨S10000x10000, .f32⟩ : BufTy).Contents (Elt Ideal)) (X : (⟨S10000x128, .f32⟩ : BufTy).Contents (Elt Ideal))
  (W : (⟨S128x128, .f32⟩ : BufTy).Contents (Elt Ideal)) (b g bt : (⟨S128, .f32⟩ : BufTy).Contents (Elt Ideal))

/-- Row `r` of the reference's linear layer. -/
abbrev yRow (r : Fin 10000) : Fin 128 → EReal := fun c => val_main_v5 (F := Ideal) A X W b (ix2 r c)

/-! ## The linear layer -/

/-- Entry `(r, c)` of the linear layer is the linear image of row `r` of the adjacency matrix, at `c`. -/
theorem lin_apply (r : Fin 10000) (c : Fin 128) :
    val_main_v5 (F := Ideal) A X W b (ix2 r c) = lin (fun k => A (ix2 r k)) X W (fun c' => b (ix1 c')) c := by
  unfold lin
  rw [val_main_v5_apply, val_main_v2_apply, val_main_v4_apply, val_main_v3_apply]
  show _ + _ = _ + _
  refine congrArg₂ (· + ·) (Finset.sum_congr rfl fun j _ => ?_) (congrArg b (ix1_ext _ c rfl))
  rw [val_main_v0_apply, val_main_v1_apply]
  refine congrArg₂ (· * ·) (Finset.sum_congr rfl fun k _ => congrArg₂ (· * ·) (congrArg A (ix2_ext _ r k rfl rfl))
    (congrArg X (ix2_ext _ k j rfl rfl))) (congrArg W (ix2_ext _ c j rfl rfl))

/-! ## The mean, the deviations, the number under the root -/

/-- The mean column's entry in row `r`. -/
theorem mean_apply (r : Fin 10000) (u : Fin 1) :
    val_main_v9 (F := Ideal) A X W b (ix2 r u) = mean (yRow A X W b r) := by
  unfold mean
  rw [val_main_v9_apply, val_main_v7_apply, val_main_v6_apply, val_main_v8_apply, val_main_cst_0_apply, val_main_cst_apply]
  show Ideal.div (Ideal.ofBits .f32 0x00000000#32 + _) width = _
  rw [Ideal.ofBits_zero_f32, zero_add]
  exact congrArg (Ideal.div · width) (Finset.sum_congr rfl fun k _ =>
    congrArg (val_main_v5 (F := Ideal) A X W b) (ix2_ext _ r k rfl rfl))

/-- The deviation at `(r, c)`, as the reference first computes it (for the squares). -/
theorem dev_apply (r : Fin 10000) (c : Fin 128) :
    val_main_v11 (F := Ideal) A X W b (ix2 r c) = dev (yRow A X W b r) c := by
  unfold dev
  rw [val_main_v11_apply, val_main_v10_apply, ix2_ext (idx_main_v10 (ix2 r c)) r (0 : Fin 1) rfl rfl, mean_apply]
  rfl

/-- The deviation at `(r, c)`, as the reference computes it again (for the quotient). -/
theorem dev_apply' (r : Fin 10000) (c : Fin 128) :
    val_main_v18 (F := Ideal) A X W b (ix2 r c) = dev (yRow A X W b r) c := by
  unfold dev
  rw [val_main_v18_apply, val_main_v17_apply, ix2_ext (idx_main_v17 (ix2 r c)) r (0 : Fin 1) rfl rfl, mean_apply]
  rfl

/-- The number under the root, in row `r`. -/
theorem spread_apply (r : Fin 10000) (u : Fin 1) :
    val_main_v20 (F := Ideal) A X W b (ix2 r u) = spread (yRow A X W b r) := by
  unfold spread
  rw [val_main_v20_apply, val_main_v16_apply, val_main_v14_apply, val_main_v13_apply, val_main_v15_apply, val_main_v19_apply,
    val_main_cst_1_apply, val_main_cst_2_apply, val_main_cst_3_apply]
  show Ideal.div (Ideal.ofBits .f32 0x00000000#32 + _) width + eps = _
  rw [Ideal.ofBits_zero_f32, zero_add]
  refine congrArg (fun s => Ideal.div s width + eps) (Finset.sum_congr rfl fun k _ => ?_)
  rw [ix2_ext (idx_main_v13 (idx_main_v14 (ix2 r u)) k) r k rfl rfl, val_main_v12_apply, dev_apply]
  rfl

/-! ## The result -/

/-- Entry `(r, c)` of the reference's result: row `r` of its linear layer, normalised with the root as a divisor. -/
theorem out_apply (r : Fin 10000) (c : Fin 128) :
    val_main_v31 (F := Ideal) A X W b g bt (ix2 r c)
      = rowOutDiv (yRow A X W b r) (fun c' => g (ix1 c')) (fun c' => bt (ix1 c')) c := by
  unfold rowOutDiv
  rw [val_main_v31_apply, val_main_v29_apply, val_main_v26_apply, val_main_v23_apply, val_main_v22_apply, val_main_v21_apply,
    val_main_v25_apply, val_main_v24_apply, val_main_v28_apply, val_main_v27_apply, val_main_v30_apply, val_main_cst_4_apply,
    ix2_ext (idx_main_v22 (ix2 r c)) r (0 : Fin 1) rfl rfl, spread_apply, dev_apply',
    ix1_ext (idx_main_v24 (idx_main_v25 (ix2 r c))) c rfl, ix1_ext (idx_main_v27 (idx_main_v28 (ix2 r c))) c rfl]
  show max _ (Ideal.ofBits .f32 0x00000000#32) = _
  rw [Ideal.ofBits_zero_f32]
  rfl

/-- The reference's result array is the specification's. -/
theorem result_eq : val_main_v31 (F := Ideal) A X W b g bt = G A X W b g bt := by
  funext i
  obtain ⟨r, c, rfl⟩ : ∃ (r : Fin 10000) (c : Fin 128), i = ix2 r c := ⟨i 0, i 1, eq_ix2 i⟩
  rw [out_apply, rowOutDiv_eq_rowOut]
  unfold G
  exact congrArg (fun y => rowOut y (fun c' => g (ix1 c')) (fun c' => bt (ix1 c')) c) (funext fun c' => lin_apply A X W b r c')

end Cert.RefRow

end
-- ==== Proof.lean ====
/-
  A graph convolution followed by a layer normalisation and a clamp at zero, fused into one kernel over blocks of 400
  rows, against the same computation written array by array.

  Both programs send row `r` of the adjacency matrix through two matrix products and a bias, centre the resulting row of
  128 numbers by its mean, scale it by the root of its mean squared deviation plus a positive constant, then apply a scale
  row, a shift row and a clamp at zero. The kernel multiplies by the reciprocal square root where the reference divides by
  the square root. On the extended reals the two agree whenever the number under the root is positive, and it always is:
  a product of a number with itself is never negative there, so the mean of the squared deviations is not, and the added
  constant is positive. Everything else is the same operations on the same numbers, so the results are equal entry by
  entry, and the precondition is not used by the value claim.

  The kernel's value: the body's one store read at an index is the normalised linear image of one row of its adjacency block
  (Proof/KernelLin.lean, Proof/KernelNorm.lean); grid point `t` writes rows `400 t … 400 t + 399`, and the 25 blocks tile
  the array (Proof/Blocks.lean). The reference's value: its stages read at an index (Proof/RefRead.lean). The shared
  specification and the law of the two forms are in Proof/Spec.lean. The three frame claims are the generated frames and the
  reference's generated run; the idealization rewrote nothing, so that claim is trivial.
-/
import proofs.«160427_g33552284516567_cont_8to1_b_1807_15_alg».proof.Defs
import proofs.«160427_g33552284516567_cont_8to1_b_1807_15_alg».proof.Proof.Gen.Kernel
import proofs.«160427_g33552284516567_cont_8to1_b_1807_15_alg».proof.Proof.Gen.Kernel.Skeleton
import proofs.«160427_g33552284516567_cont_8to1_b_1807_15_alg».proof.Proof.Gen.Kernel.Launch
import proofs.«160427_g33552284516567_cont_8to1_b_1807_15_alg».proof.Proof.Gen.Kernel.Points
import proofs.«160427_g33552284516567_cont_8to1_b_1807_15_alg».proof.Proof.Gen.Kernel.Frame
import proofs.«160427_g33552284516567_cont_8to1_b_1807_15_alg».proof.Proof.Gen.KernelIdeal
import proofs.«160427_g33552284516567_cont_8to1_b_1807_15_alg».proof.Proof.Gen.KernelIdeal.Skeleton
import proofs.«160427_g33552284516567_cont_8to1_b_1807_15_alg».proof.Proof.Gen.KernelIdeal.Launch
import proofs.«160427_g33552284516567_cont_8to1_b_1807_15_alg».proof.Proof.Gen.KernelIdeal.Points
import proofs.«160427_g33552284516567_cont_8to1_b_1807_15_alg».proof.Proof.Gen.KernelIdeal.Frame
import proofs.«160427_g33552284516567_cont_8to1_b_1807_15_alg».proof.Proof.Gen.ReferenceIdeal
import proofs.«160427_g33552284516567_cont_8to1_b_1807_15_alg».proof.Proof.Gen.Pre_finite_inputs
import proofs.«160427_g33552284516567_cont_8to1_b_1807_15_alg».proof.Proof.Gen.KernelIdeal.Value
import proofs.«160427_g33552284516567_cont_8to1_b_1807_15_alg».proof.Proof.Gen.ReferenceIdeal.Run
import proofs.«160427_g33552284516567_cont_8to1_b_1807_15_alg».proof.Proof.Gen.ReferenceIdeal.Read
import proofs.«160427_g33552284516567_cont_8to1_b_1807_15_alg».proof.Proof.Blocks
import proofs.«160427_g33552284516567_cont_8to1_b_1807_15_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the six arguments, end with the result array at the specification of those
    arguments: the kernel by its blocks, the reference by its stages and the law of the two forms. -/
theorem algebraic : Cert.algebraic_KernelIdeal_ReferenceIdeal := by
  intro m ρ m' ρ' _ hagree
  refine ⟨fun c => Cert.RowNorm.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelRow.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.RefRow.result_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
